-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512x128 : Shape := ⟨4, ![1, 512, 512, 128]⟩
abbrev S128 : Shape := ⟨1, ![128]⟩
abbrev S128x128 : Shape := ⟨2, ![128, 128]⟩
abbrev S_ : Shape := ⟨0, ![]⟩

class Facts : Prop where
  bcast_S_S1x512x512x128 : S_.BroadcastsInDim S1x512x512x128 (![] : Fin 0 → Fin S1x512x512x128.rank)
  reducesTo_S1x512x512x128_S_d0_1_2_3 : S1x512x512x128.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1x512x512x128 .f32) (main_arg1 : FVec F S128 .f32) (main_arg2 : FVec F S128x128 .f32) (main_arg3 : FVec F S128x128 .f32) (main_arg4 : FVec F S128x128 .f32) (main_arg5 : FVec F S128 .f32) : IVec S_ 1 :=
  let main_v0 : FVec F S1x512x512x128 .f32 := Host.absf main_arg0
  let main_cst : FVec F S_ .f32 := constant S_ .f32 0x7F800000#32
  let main_v1 : FVec F S1x512x512x128 .f32 := broadcastInDim S1x512x512x128 ![] bcast_S_S1x512x512x128 main_cst
  let main_v2 : IVec S1x512x512x128 1 := cmpf .olt main_v0 main_v1
  let main_c : IVec S_ 1 := constantI S_ 1 1#1
  let main_v3 : IVec S_ 1 := (fun x v => Host.reduce IntOp.andi x v reducesTo_S1x512x512x128_S_d0_1_2_3 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S1x512x512x128 : Shape := ⟨4, ![1, 512, 512, 128]⟩
abbrev S128 : Shape := ⟨1, ![128]⟩
abbrev S128x128 : Shape := ⟨2, ![128, 128]⟩
abbrev S512x512x128 : Shape := ⟨3, ![512, 512, 128]⟩
abbrev S1x128 : Shape := ⟨2, ![1, 128]⟩
abbrev S4x512x128 : Shape := ⟨3, ![4, 512, 128]⟩
abbrev S4x512 : Shape := ⟨2, ![4, 512]⟩
abbrev S4x512x1 : Shape := ⟨3, ![4, 512, 1]⟩
abbrev S1x1x128 : Shape := ⟨3, ![1, 1, 128]⟩
abbrev S2048x128 : Shape := ⟨2, ![2048, 128]⟩
abbrev S4x512x512 : Shape := ⟨3, ![4, 512, 512]⟩

abbrev nBuf : Space → Nat
  | .hbm => 17
  | .vmem => 9
  | .smem => 0
  | _ => 0

abbrev bufTy : (tb : Table) → Fin (tcTables nBuf tb) → BufTy
  | .hbm, ⟨0, _⟩ => ⟨S1x512x512x128, .f32⟩
  | .hbm, ⟨1, _⟩ => ⟨S128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S512x512x128, .f32⟩
  | .hbm, ⟨7, _⟩ => ⟨S128x128, .f32⟩
  | .hbm, ⟨8, _⟩ => ⟨S128x128, .bf16⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .bf16⟩
  | .hbm, ⟨13, _⟩ => ⟨S1x128, .f32⟩
  | .hbm, ⟨14, _⟩ => ⟨S1x128, .f32⟩
  | .hbm, ⟨15, _⟩ => ⟨S512x512x128, .f32⟩
  | .hbm, ⟨16, _⟩ => ⟨S1x512x512x128, .f32⟩
  | .local _ .vmem, ⟨0, _⟩ => ⟨S4x512x128, .f32⟩
  | .local _ .vmem, ⟨1, _⟩ => ⟨S4x512x128, .f32⟩
  | .local _ .vmem, ⟨2, _⟩ => ⟨S1x128, .f32⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S4x512x128, .f32⟩
  | .local _ .vmem, ⟨8, _⟩ => ⟨S4x512x128, .f32⟩
  | _, _ => ⟨S1x512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x512x512x128_S512x512x128 : S1x512x512x128.ShapeCasts S512x512x128
  transposes_S128x128_S128x128_1_0 : S128x128.Transposes [1, 0] S128x128
  bitsLt_bf16_f32 : FTy.bits .bf16 < FTy.bits .f32
  shapeCasts_S128_S1x128 : S128.ShapeCasts S1x128
  inb_S4x512x128_S4x512x128_0_0_0 : ∀ a, (![0, 0, 0] : Fin 3 → Nat) a + S4x512x128.size a ≤ S4x512x128.size a
  h_S4x512x128 : 0 < S4x512x128.numel
  shapeCasts_S4x512x128_S4x512x128 : S4x512x128.ShapeCasts S4x512x128
  reduces_S4x512x128_S4x512 : S4x512x128.Reduces [2] S4x512
  shapeCasts_S4x512_S4x512x1 : S4x512.ShapeCasts S4x512x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S4x512x1_S4x512x128 : S4x512x1.Broadcasts S4x512x128
  broadcasts_S1x1x128_S4x512x128 : S1x1x128.Broadcasts S4x512x128
  shapeCasts_S4x512x128_S2048x128 : S4x512x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2048x128 : S1x128.Broadcasts S2048x128
  shapeCasts_S2048x128_S4x512x128 : S2048x128.ShapeCasts S4x512x128
  reduces_S4x512x512_S4x512 : S4x512x512.Reduces [2] S4x512
  broadcasts_S4x512x1_S4x512x512 : S4x512x1.Broadcasts S4x512x512
  shapeCasts_S512x512x128_S1x512x512x128 : S512x512x128.ShapeCasts S1x512x512x128
  dot_S2048x128_S128x128_S2048x128_1_0_0_1_n_n_wf : DotDims.WF S2048x128 S128x128 S2048x128 [1] [0] [0] [1] [] []
  dot_S4x512x128_S4x512x128_S4x512x512_2_2_1_1_0_0_wf : DotDims.WF S4x512x128 S4x512x128 S4x512x512 [2] [2] [1] [1] [0] [0]
  dot_S4x512x512_S4x512x128_S4x512x128_2_1_1_2_0_0_wf : DotDims.WF S4x512x512 S4x512x128 S4x512x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x128.size a ≤ S512x512x128.size a
  hwx0_0 : ∀ i : grid0.Coords, EltTy.bits .f32 = 32 ∨ (Rect.block (s := S512x512x128) S4x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512x128.size a ≤ S512x512x128.size a
  hwx0_6 : ∀ i : grid0.Coords, EltTy.bits .f32 = 32 ∨ (Rect.block (s := S512x512x128) S4x512x128.size (cc0_transform_6 i) (hinb0_6 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4x512x128_S4x512x128_S4x512x512_2_2_1_1_0_0 : DotDims S4x512x128 S4x512x128 S4x512x512 where
  lhsContracting := [2]
  rhsContracting := [2]
  lhsNonContracting := [1]
  rhsNonContracting := [1]
  lhsBatch := [0]
  rhsBatch := [0]
  wf := dot_S4x512x128_S4x512x128_S4x512x512_2_2_1_1_0_0_wf
def dot_S4x512x512_S4x512x128_S4x512x128_2_1_1_2_0_0 : DotDims S4x512x512 S4x512x128 S4x512x128 where
  lhsContracting := [2]
  rhsContracting := [1]
  lhsNonContracting := [1]
  rhsNonContracting := [2]
  lhsBatch := [0]
  rhsBatch := [0]
  wf := dot_S4x512x512_S4x512x128_S4x512x128_2_1_1_2_0_0_wf

abbrev win0_0 : Pipeline.Window sig grid0 :=
  Pipeline.Window.ofSpec (Memref.whole main_v0) S4x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S4x512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x512x512x128 : Shape := ⟨4, ![1, 512, 512, 128]⟩
abbrev S128 : Shape := ⟨1, ![128]⟩
abbrev S128x128 : Shape := ⟨2, ![128, 128]⟩
abbrev S_ : Shape := ⟨0, ![]⟩
abbrev S1x512x512 : Shape := ⟨3, ![1, 512, 512]⟩
abbrev S1x512x512x1 : Shape := ⟨4, ![1, 512, 512, 1]⟩
abbrev S1x1x1x128 : Shape := ⟨4, ![1, 1, 1, 128]⟩
abbrev S1x512x512x512 : Shape := ⟨4, ![1, 512, 512, 512]⟩

abbrev nBuf : Space → Nat
  | .hbm => 47
  | .vmem => 0
  | .smem => 0
  | _ => 0

abbrev bufTy : (tb : Table) → Fin (tcTables nBuf tb) → BufTy
  | .hbm, ⟨0, _⟩ => ⟨S1x512x512x128, .f32⟩
  | .hbm, ⟨1, _⟩ => ⟨S128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1x512x512x128, .f32⟩
  | .hbm, ⟨7, _⟩ => ⟨S_, .f32⟩
  | .hbm, ⟨8, _⟩ => ⟨S1x512x512, .f32⟩
  | .hbm, ⟨9, _⟩ => ⟨S1x512x512x1, .f32⟩
  | .hbm, ⟨10, _⟩ => ⟨S_, .f32⟩
  | .hbm, ⟨11, _⟩ => ⟨S1x512x512x1, .f32⟩
  | .hbm, ⟨12, _⟩ => ⟨S1x512x512x1, .f32⟩
  | .hbm, ⟨13, _⟩ => ⟨S_, .f32⟩
  | .hbm, ⟨14, _⟩ => ⟨S1x512x512x1, .f32⟩
  | .hbm, ⟨15, _⟩ => ⟨S1x512x512x1, .f32⟩
  | .hbm, ⟨16, _⟩ => ⟨S1x512x512x1, .f32⟩
  | .hbm, ⟨17, _⟩ => ⟨S1x512x512x128, .f32⟩
  | .hbm, ⟨18, _⟩ => ⟨S1x512x512x128, .f32⟩
  | .hbm, ⟨19, _⟩ => ⟨S1x1x1x128, .f32⟩
  | .hbm, ⟨20, _⟩ => ⟨S1x512x512x128, .f32⟩
  | .hbm, ⟨21, _⟩ => ⟨S1x512x512x128, .f32⟩
  | .hbm, ⟨22, _⟩ => ⟨S1x512x512x128, .f32⟩
  | .hbm, ⟨23, _⟩ => ⟨S1x512x512x128, .f32⟩
  | .hbm, ⟨24, _⟩ => ⟨S1x512x512x128, .f32⟩
  | .hbm, ⟨25, _⟩ => ⟨S1x1x1x128, .f32⟩
  | .hbm, ⟨26, _⟩ => ⟨S1x512x512x128, .f32⟩
  | .hbm, ⟨27, _⟩ => ⟨S1x512x512x128, .f32⟩
  | .hbm, ⟨28, _⟩ => ⟨S1x512x512x512, .f32⟩
  | .hbm, ⟨29, _⟩ => ⟨S_, .f32⟩
  | .hbm, ⟨30, _⟩ => ⟨S1x512x512x512, .f32⟩
  | .hbm, ⟨31, _⟩ => ⟨S1x512x512x512, .f32⟩
  | .hbm, ⟨32, _⟩ => ⟨S_, .f32⟩
  | .hbm, ⟨33, _⟩ => ⟨S1x512x512, .f32⟩
  | .hbm, ⟨34, _⟩ => ⟨S_, .f32⟩
  | .hbm, ⟨35, _⟩ => ⟨S1x512x512, .f32⟩
  | .hbm, ⟨36, _⟩ => ⟨S1x512x512, .f32⟩
  | .hbm, ⟨37, _⟩ => ⟨S1x512x512x1, .f32⟩
  | .hbm, ⟨38, _⟩ => ⟨S1x512x512x512, .f32⟩
  | .hbm, ⟨39, _⟩ => ⟨S1x512x512x512, .f32⟩
  | .hbm, ⟨40, _⟩ => ⟨S1x512x512x512, .f32⟩
  | .hbm, ⟨41, _⟩ => ⟨S_, .f32⟩
  | .hbm, ⟨42, _⟩ => ⟨S1x512x512, .f32⟩
  | .hbm, ⟨43, _⟩ => ⟨S1x512x512x1, .f32⟩
  | .hbm, ⟨44, _⟩ => ⟨S1x512x512x512, .f32⟩
  | .hbm, ⟨45, _⟩ => ⟨S1x512x512x512, .f32⟩
  | .hbm, ⟨46, _⟩ => ⟨S1x512x512x128, .f32⟩
  | _, _ => ⟨S1x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S1x512x512x128_S1x512x512_d3 : S1x512x512x128.ReducesTo [3] S1x512x512
  h_S_ : 0 < S_.numel
  bcast_S1x512x512_S1x512x512x1_0_1_2 : S1x512x512.BroadcastsInDim S1x512x512x1 (![0, 1, 2] : Fin 3 → Fin S1x512x512x1.rank)
  bcast_S_S1x512x512x1 : S_.BroadcastsInDim S1x512x512x1 (![] : Fin 0 → Fin S1x512x512x1.rank)
  bcast_S1x512x512x1_S1x512x512x128_0_1_2_3 : S1x512x512x1.BroadcastsInDim S1x512x512x128 (![0, 1, 2, 3] : Fin 4 → Fin S1x512x512x128.rank)
  bcast_S128_S1x1x1x128_3 : S128.BroadcastsInDim S1x1x1x128 (![3] : Fin 1 → Fin S1x1x1x128.rank)
  bcast_S1x1x1x128_S1x512x512x128_0_1_2_3 : S1x1x1x128.BroadcastsInDim S1x512x512x128 (![0, 1, 2, 3] : Fin 4 → Fin S1x512x512x128.rank)
  bcast_S_S1x512x512x512 : S_.BroadcastsInDim S1x512x512x512 (![] : Fin 0 → Fin S1x512x512x512.rank)
  reducesTo_S1x512x512x512_S1x512x512_d3 : S1x512x512x512.ReducesTo [3] S1x512x512
  bcast_S_S1x512x512 : S_.BroadcastsInDim S1x512x512 (![] : Fin 0 → Fin S1x512x512.rank)
  bcast_S1x512x512x1_S1x512x512x512_0_1_2_3 : S1x512x512x1.BroadcastsInDim S1x512x512x512 (![0, 1, 2, 3] : Fin 4 → Fin S1x512x512x512.rank)
  dot_S1x512x512x128_S128x128_S1x512x512x128_3_1_012_0_n_n_wf : DotDims.WF S1x512x512x128 S128x128 S1x512x512x128 [3] [1] [0, 1, 2] [0] [] []
  dot_S1x512x512x128_S1x512x512x128_S1x512x512x512_3_3_2_2_01_01_wf : DotDims.WF S1x512x512x128 S1x512x512x128 S1x512x512x512 [3] [3] [2] [2] [0, 1] [0, 1]
  dot_S1x512x512x512_S1x512x512x128_S1x512x512x128_3_2_2_3_01_01_wf : DotDims.WF S1x512x512x512 S1x512x512x128 S1x512x512x128 [3] [2] [2] [3] [0, 1] [0, 1]

variable [Facts₀]

def dot_S1x512x512x128_S128x128_S1x512x512x128_3_1_012_0_n_n : DotDims S1x512x512x128 S128x128 S1x512x512x128 where
  lhsContracting := [3]
  rhsContracting := [1]
  lhsNonContracting := [0, 1, 2]
  rhsNonContracting := [0]
  lhsBatch := []
  rhsBatch := []
  wf := dot_S1x512x512x128_S128x128_S1x512x512x128_3_1_012_0_n_n_wf
def dot_S1x512x512x128_S1x512x512x128_S1x512x512x512_3_3_2_2_01_01 : DotDims S1x512x512x128 S1x512x512x128 S1x512x512x512 where
  lhsContracting := [3]
  rhsContracting := [3]
  lhsNonContracting := [2]
  rhsNonContracting := [2]
  lhsBatch := [0, 1]
  rhsBatch := [0, 1]
  wf := dot_S1x512x512x128_S1x512x512x128_S1x512x512x512_3_3_2_2_01_01_wf
def dot_S1x512x512x512_S1x512x512x128_S1x512x512x128_3_2_2_3_01_01 : DotDims S1x512x512x512 S1x512x512x128 S1x512x512x128 where
  lhsContracting := [3]
  rhsContracting := [2]
  lhsNonContracting := [2]
  rhsNonContracting := [3]
  lhsBatch := [0, 1]
  rhsBatch := [0, 1]
  wf := dot_S1x512x512x512_S1x512x512x128_S1x512x512x128_3_2_2_3_01_01_wf

class Facts : Prop extends Facts₀ where

variable [Facts]
-- ==== Proof.RowAttention.lean ====
/-
  Row attention on the extended reals, one row of 512 tokens with 128 features at a time.

  A token is RMS-normalised over its features and scaled feature by feature; three linear maps (weights stored
  [out, in]) give queries, keys and values, the values with a bias; a query's scores against the row's keys are
  scaled, shifted by their maximum, exponentiated and divided by their sum; the result mixes the row's values with
  those weights. Nothing here mixes two rows: the whole computation is a function of ONE row of the input, which
  is why any tiling of the rows computes the same array.
-/
import Idealize.ShloMosaic.PureOps.Ideal
import Idealize.ShloMosaic.PureOps.Ideal.Laws
import Idealize.ShloMosaic.Lib.ValueIdx

noncomputable section

open scoped BigOperators

namespace Cert.RowAttention

open Idealize.ShloMosaic Idealize.ShloMosaic.ValueIdx

/-- The number of features, 128, as both programs spell it. -/
abbrev cDim : EReal := Ideal.ofBits .f32 0x43000000#32
/-- The stabiliser under the square root, the float nearest 1e-6. -/
abbrev cEps : EReal := Ideal.ofBits .f32 0x358637BD#32
/-- The score scale, the float nearest 1/sqrt 128: the same word in both programs. -/
abbrev cScale : EReal := Ideal.ofBits .f32 0x3DB504F3#32
/-- Minus infinity, where both maxima start. -/
abbrev cNegInf : EReal := Ideal.ofBits .f32 0xFF800000#32

/-- Token `q` of a row, RMS-normalised over its 128 features and scaled by `NS`, at feature `f`. -/
def normed (X : Fin 512 → Fin 128 → EReal) (NS : Fin 128 → EReal) (q : Fin 512) (f : Fin 128) : EReal :=
  X q f * Ideal.rsqrt (Ideal.div (∑ f' : Fin 128, X q f' * X q f') cDim + cEps) * NS f

/-- A linear map of the features, weights stored [out, in]: output feature `g` of token `q`. -/
def proj (H : Fin 512 → Fin 128 → EReal) (W : Fin 128 → Fin 128 → EReal) (q : Fin 512) (g : Fin 128) : EReal :=
  ∑ f : Fin 128, H q f * W g f

/-- A raw score scaled. -/
def scaled (S : Fin 512 → Fin 512 → EReal) (q k : Fin 512) : EReal := S q k * cScale

/-- The largest scaled score of query `q` over the row's keys (a fold from minus infinity, floored there once more). -/
def rowMax (S : Fin 512 → Fin 512 → EReal) (q : Fin 512) : EReal :=
  max cNegInf ((Finset.univ : Finset (Fin 512)).fold max cNegInf (fun k => scaled S q k))

/-- The exponential of a scaled score shifted by its row's maximum. -/
def expo (S : Fin 512 → Fin 512 → EReal) (q k : Fin 512) : EReal := Ideal.exp (scaled S q k - rowMax S q)

/-- The softmax weight of key `k` for query `q`. -/
def weight (S : Fin 512 → Fin 512 → EReal) (q k : Fin 512) : EReal :=
  Ideal.div (expo S q k) (∑ k' : Fin 512, expo S q k')

/-- The values of a row mixed with the softmax weights of the raw scores `S`. -/
def mix (S : Fin 512 → Fin 512 → EReal) (V : Fin 512 → Fin 128 → EReal) (q : Fin 512) (f : Fin 128) : EReal :=
  ∑ k : Fin 512, weight S q k * V k f

/-- The raw score of query `q` against key `k`: the inner product of their 128 features. -/
def rawScore (Q K : Fin 512 → Fin 128 → EReal) (q k : Fin 512) : EReal := ∑ g : Fin 128, Q q g * K k g

/-- The values: a linear map plus a bias. -/
def values (H : Fin 512 → Fin 128 → EReal) (WV : Fin 128 → Fin 128 → EReal) (BV : Fin 128 → EReal)
    (k : Fin 512) (g : Fin 128) : EReal := proj H WV k g + BV g

/-- Row attention: output feature `f` of token `q` of the row `X`. -/
def attend (X : Fin 512 → Fin 128 → EReal) (NS : Fin 128 → EReal) (WQ WK WV : Fin 128 → Fin 128 → EReal)
    (BV : Fin 128 → EReal) (q : Fin 512) (f : Fin 128) : EReal :=
  mix (rawScore (proj (normed X NS) WQ) (proj (normed X NS) WK)) (values (normed X NS) WV BV) q f

/-! ## The argument arrays read by coordinates -/

/-- Row `p` of the [1, 512, 512, 128] input. -/
def rowOf (x : (⟨4, ![1, 512, 512, 128]⟩ : Shape).Idx → EReal) (p : Fin 512) : Fin 512 → Fin 128 → EReal :=
  fun q f => x (ix4 (0 : Fin 1) p q f)
/-- A [128] vector. -/
def vecOf (v : (⟨1, ![128]⟩ : Shape).Idx → EReal) : Fin 128 → EReal := fun f => v (ix1 f)
/-- A [128, 128] weight matrix, [out, in]. -/
def matOf (w : (⟨2, ![128, 128]⟩ : Shape).Idx → EReal) : Fin 128 → Fin 128 → EReal := fun g f => w (ix2 g f)

/-- The whole result array [1, 512, 512, 128]: entry (0, p, q, f) is row attention of row `p` at (q, f). -/
def result (x : (⟨4, ![1, 512, 512, 128]⟩ : Shape).Idx → EReal) (ns : (⟨1, ![128]⟩ : Shape).Idx → EReal)
    (wq wk wv : (⟨2, ![128, 128]⟩ : Shape).Idx → EReal) (bv : (⟨1, ![128]⟩ : Shape).Idx → EReal) :
    (⟨4, ![1, 512, 512, 128]⟩ : Shape).Idx → EReal :=
  fun i => attend (rowOf x (i 1)) (vecOf ns) (matOf wq) (matOf wk) (matOf wv) (vecOf bv) (i 2) (i 3)

theorem result_apply (x : (⟨4, ![1, 512, 512, 128]⟩ : Shape).Idx → EReal) (ns : (⟨1, ![128]⟩ : Shape).Idx → EReal)
    (wq wk wv : (⟨2, ![128, 128]⟩ : Shape).Idx → EReal) (bv : (⟨1, ![128]⟩ : Shape).Idx → EReal)
    (u : Fin 1) (p q : Fin 512) (f : Fin 128) :
    result x ns wq wk wv bv (ix4 u p q f)
      = attend (rowOf x p) (vecOf ns) (matOf wq) (matOf wk) (matOf wv) (vecOf bv) q f := rfl

end Cert.RowAttention

end
-- ==== Proof.LibHostLast4.lean ====
/-
  The host's reduce with max along the last axis of a rank-4 array, read at an index on the extended reals and for any
  extents: over [n0, n1, n2, k] into [n0, n1, n2] it is, at (a, b, r), the fold of max from the initial value over the k
  entries (a, b, r, ·).
-/
import Idealize.ShloMosaic.PureOps.Ideal.Laws
import Idealize.ShloMosaic.Lib.ValueIdx

noncomputable section

namespace Idealize.ShloMosaic.HostLast4

open Idealize.ShloMosaic Idealize.ShloMosaic.ValueIdx

/-- The reduced index `(a, b, r)` with the last coordinate `c` put back is `(a, b, r, c)`. -/
theorem lift_last {n0 n1 n2 k : ℕ} (h : (⟨4, ![n0, n1, n2, k]⟩ : Shape).Reduces [3] ⟨3, ![n0, n1, n2]⟩)
    (a : Fin n0) (b : Fin n1) (r : Fin n2) (c : Fin k) : h.lift (ix3 a b r) c = ix4 a b r c :=
  funext fun x => Fin.ext (by match x with | ⟨0, _⟩ => rfl | ⟨1, _⟩ => rfl | ⟨2, _⟩ => rfl | ⟨3, _⟩ => rfl)

/-- A host reduce with max over the last axis of an `[n0, n1, n2, k]` array, at `(a, b, r)`: the fold of max over
    the entries `(a, b, r, ·)`. -/
theorem reduce_max_last_apply {n0 n1 n2 k : ℕ} (z : (⟨4, ![n0, n1, n2, k]⟩ : Shape).Idx → EReal) {u : Shape}
    (init : u.Idx → EReal) (h' : (⟨4, ![n0, n1, n2, k]⟩ : Shape).ReducesTo [3] ⟨3, ![n0, n1, n2]⟩)
    (h : (⟨4, ![n0, n1, n2, k]⟩ : Shape).Reduces [3] ⟨3, ![n0, n1, n2]⟩) (hu : 0 < u.numel)
    (a : Fin n0) (b : Fin n1) (r : Fin n2) :
    Host.reduce (max : EReal → EReal → EReal) z init h' hu (ix3 a b r)
      = (Finset.univ : Finset (Fin k)).fold max (init (Shape.Idx.first hu)) (fun c => z (ix4 a b r c)) :=
  (Host.reduce_eq_fold_single max z init h' h hu (ix3 a b r)).trans
    (Finset.fold_congr fun c _ => congrArg z (lift_last h a b r c))

end Idealize.ShloMosaic.HostLast4

end
-- ==== Proof.RefRows.lean ====
/-
  The reference, stage by stage, is row attention.

  Each host operation of the reference, read at an index (0, p, q, ·) of its result, is one piece of the specification
  applied to row `p` of the input: the normalised tokens, the three linear maps, the raw and scaled scores, their row
  maximum, the shifted exponentials, their sum, the softmax weights and the mixed values. The indices the broadcasts,
  sums and products read their operands at are identified with coordinate tuples once, below.
-/
import proofs.«145544_j3539053052297_1_alg».proof.Proof.Gen.ReferenceIdeal.Read
import proofs.«145544_j3539053052297_1_alg».proof.Proof.RowAttention
import proofs.«145544_j3539053052297_1_alg».proof.Proof.LibHostLast4

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RowAttention

/-! ## The operand indices, by coordinates -/

local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))
local macro "idx3" : tactic => `(tactic| exact funext fun a => Fin.ext (by
  match a with | ⟨0, _⟩ => rfl | ⟨1, _⟩ => rfl | ⟨2, _⟩ => rfl))
local macro "idx4" : tactic => `(tactic| exact funext fun a => Fin.ext (by
  match a with | ⟨0, _⟩ => rfl | ⟨1, _⟩ => rfl | ⟨2, _⟩ => rfl | ⟨3, _⟩ => rfl))

theorem i1 (p q : Fin 512) (k : Fin 128) : idx_main_v1 (ix3 (0 : Fin 1) p q) k = ix4 (0 : Fin 1) p q k := by idx4
theorem i2 (p q : Fin 512) (z : Fin 1) : idx_main_v2 (ix4 (0 : Fin 1) p q z) = ix3 (0 : Fin 1) p q := by idx3
theorem i8 (p q : Fin 512) (f : Fin 128) : idx_main_v8 (ix4 (0 : Fin 1) p q f) = ix4 (0 : Fin 1) p q (0 : Fin 1) := by idx4
theorem i10 (a b c : Fin 1) (f : Fin 128) : idx_main_v10 (ix4 a b c f) = ix1 f := by idx1
theorem i11 (p q : Fin 512) (f : Fin 128) :
    idx_main_v11 (ix4 (0 : Fin 1) p q f) = ix4 (0 : Fin 1) (0 : Fin 1) (0 : Fin 1) f := by idx4
theorem l13 (p q : Fin 512) (g k : Fin 128) : lidx_main_v13 (ix4 (0 : Fin 1) p q g) k = ix4 (0 : Fin 1) p q k := by idx4
theorem r13 (p q : Fin 512) (g k : Fin 128) : ridx_main_v13 (ix4 (0 : Fin 1) p q g) k = ix2 g k := by idx2
theorem l14 (p q : Fin 512) (g k : Fin 128) : lidx_main_v14 (ix4 (0 : Fin 1) p q g) k = ix4 (0 : Fin 1) p q k := by idx4
theorem r14 (p q : Fin 512) (g k : Fin 128) : ridx_main_v14 (ix4 (0 : Fin 1) p q g) k = ix2 g k := by idx2
theorem l15 (p q : Fin 512) (g k : Fin 128) : lidx_main_v15 (ix4 (0 : Fin 1) p q g) k = ix4 (0 : Fin 1) p q k := by idx4
theorem r15 (p q : Fin 512) (g k : Fin 128) : ridx_main_v15 (ix4 (0 : Fin 1) p q g) k = ix2 g k := by idx2
theorem i16 (a b c : Fin 1) (f : Fin 128) : idx_main_v16 (ix4 a b c f) = ix1 f := by idx1
theorem i17 (p q : Fin 512) (f : Fin 128) :
    idx_main_v17 (ix4 (0 : Fin 1) p q f) = ix4 (0 : Fin 1) (0 : Fin 1) (0 : Fin 1) f := by idx4
theorem l19 (p q k : Fin 512) (g : Fin 128) : lidx_main_v19 (ix4 (0 : Fin 1) p q k) g = ix4 (0 : Fin 1) p q g := by idx4
theorem r19 (p q k : Fin 512) (g : Fin 128) : ridx_main_v19 (ix4 (0 : Fin 1) p q k) g = ix4 (0 : Fin 1) p k g := by idx4
theorem i25 (p q : Fin 512) (z : Fin 1) : idx_main_v25 (ix4 (0 : Fin 1) p q z) = ix3 (0 : Fin 1) p q := by idx3
theorem i26 (p q k : Fin 512) : idx_main_v26 (ix4 (0 : Fin 1) p q k) = ix4 (0 : Fin 1) p q (0 : Fin 1) := by idx4
theorem i29 (p q k : Fin 512) : idx_main_v29 (ix3 (0 : Fin 1) p q) k = ix4 (0 : Fin 1) p q k := by idx4
theorem i30 (p q : Fin 512) (z : Fin 1) : idx_main_v30 (ix4 (0 : Fin 1) p q z) = ix3 (0 : Fin 1) p q := by idx3
theorem i31 (p q k : Fin 512) : idx_main_v31 (ix4 (0 : Fin 1) p q k) = ix4 (0 : Fin 1) p q (0 : Fin 1) := by idx4
theorem l33 (p q k : Fin 512) (f : Fin 128) : lidx_main_v33 (ix4 (0 : Fin 1) p q f) k = ix4 (0 : Fin 1) p q k := by idx4
theorem r33 (p q k : Fin 512) (f : Fin 128) : ridx_main_v33 (ix4 (0 : Fin 1) p q f) k = ix4 (0 : Fin 1) p k f := by idx4

/-! ## The stages -/

variable (x0 : (⟨S1x512x512x128, .f32⟩ : BufTy).Contents (Elt Ideal)) (x1 : (⟨S128, .f32⟩ : BufTy).Contents (Elt Ideal))
  (x2 x3 x4 : (⟨S128x128, .f32⟩ : BufTy).Contents (Elt Ideal)) (x5 : (⟨S128, .f32⟩ : BufTy).Contents (Elt Ideal))

/-- The sum of a token's squared features. -/
theorem ref_sumsq (p q : Fin 512) :
    val_main_v1 (F := Ideal) x0 (ix3 (0 : Fin 1) p q) = ∑ f' : Fin 128, rowOf x0 p q f' * rowOf x0 p q f' := by
  rw [val_main_v1_apply, val_main_cst_apply]
  show Ideal.ofBits .f32 0x00000000#32 + _ = _
  rw [Ideal.ofBits_zero_f32, zero_add]
  refine Finset.sum_congr rfl fun k _ => ?_
  rw [i1, val_main_v0_apply]
  rfl

/-- The normalised, scaled tokens. -/
theorem ref_normed (p q : Fin 512) (f : Fin 128) :
    val_main_v12 (F := Ideal) x0 x1 (ix4 (0 : Fin 1) p q f) = normed (rowOf x0 p) (vecOf x1) q f := by
  rw [val_main_v12_apply, val_main_v9_apply, val_main_v8_apply, i8, val_main_v7_apply, val_main_v6_apply,
    val_main_v4_apply, val_main_v2_apply, i2, ref_sumsq, val_main_v3_apply, val_main_cst_0_apply, val_main_v5_apply,
    val_main_cst_1_apply, val_main_v11_apply, i11, val_main_v10_apply, i10]
  rfl

/-- The queries. -/
theorem ref_q (p q : Fin 512) (g : Fin 128) :
    val_main_v13 (F := Ideal) x0 x1 x2 (ix4 (0 : Fin 1) p q g) = proj (normed (rowOf x0 p) (vecOf x1)) (matOf x2) q g := by
  rw [val_main_v13_apply]
  unfold proj
  refine Finset.sum_congr rfl fun k _ => ?_
  rw [l13, r13, ref_normed]
  rfl

/-- The keys. -/
theorem ref_k (p q : Fin 512) (g : Fin 128) :
    val_main_v14 (F := Ideal) x0 x1 x3 (ix4 (0 : Fin 1) p q g) = proj (normed (rowOf x0 p) (vecOf x1)) (matOf x3) q g := by
  rw [val_main_v14_apply]
  unfold proj
  refine Finset.sum_congr rfl fun k _ => ?_
  rw [l14, r14, ref_normed]
  rfl

/-- The values. -/
theorem ref_v (p q : Fin 512) (g : Fin 128) :
    val_main_v18 (F := Ideal) x0 x1 x4 x5 (ix4 (0 : Fin 1) p q g)
      = values (normed (rowOf x0 p) (vecOf x1)) (matOf x4) (vecOf x5) q g := by
  rw [val_main_v18_apply, val_main_v17_apply, i17, val_main_v16_apply, i16, val_main_v15_apply]
  unfold values proj
  refine congrArg (· + _) (Finset.sum_congr rfl fun k _ => ?_)
  rw [l15, r15, ref_normed]
  rfl

/-- The raw scores of a row. -/
abbrev scoresOf (p : Fin 512) : Fin 512 → Fin 512 → EReal :=
  rawScore (proj (normed (rowOf x0 p) (vecOf x1)) (matOf x2)) (proj (normed (rowOf x0 p) (vecOf x1)) (matOf x3))

theorem ref_raw (p q k : Fin 512) :
    val_main_v19 (F := Ideal) x0 x1 x2 x3 (ix4 (0 : Fin 1) p q k) = scoresOf x0 x1 x2 x3 p q k := by
  rw [val_main_v19_apply]
  unfold scoresOf rawScore
  refine Finset.sum_congr rfl fun g _ => ?_
  rw [l19, r19, ref_q, ref_k]

theorem ref_scaled (p q k : Fin 512) :
    val_main_v21 (F := Ideal) x0 x1 x2 x3 (ix4 (0 : Fin 1) p q k) = scaled (scoresOf x0 x1 x2 x3 p) q k := by
  rw [val_main_v21_apply, val_main_v20_apply, val_main_cst_2_apply, ref_raw]
  rfl

/-- The row maximum: the host's max-reduce over the keys, floored at minus infinity once more. -/
theorem ref_max (p q : Fin 512) :
    val_main_v24 (F := Ideal) x0 x1 x2 x3 (ix3 (0 : Fin 1) p q) = rowMax (scoresOf x0 x1 x2 x3 p) q := by
  have h := HostLast4.reduce_max_last_apply (val_main_v21 (F := Ideal) x0 x1 x2 x3) (val_main_cst_3 (F := Ideal))
    reducesTo_S1x512x512x512_S1x512x512_d3 (by decide) h_S_ (0 : Fin 1) p q
  rw [val_main_v24_apply, val_main_v23_apply, val_main_cst_4_apply]
  unfold val_main_v22
  show max (Ideal.ofBits .f32 0xFF800000#32) (Host.reduce (max : EReal → EReal → EReal) (val_main_v21 (F := Ideal) x0 x1 x2 x3)
    (val_main_cst_3 (F := Ideal)) reducesTo_S1x512x512x512_S1x512x512_d3 h_S_ (ix3 (0 : Fin 1) p q)) = _
  rw [h]
  unfold rowMax
  refine congrArg (max _) (Finset.fold_congr fun k _ => ?_)
  exact ref_scaled x0 x1 x2 x3 p q k

theorem ref_exp (p q k : Fin 512) :
    val_main_v28 (F := Ideal) x0 x1 x2 x3 (ix4 (0 : Fin 1) p q k) = expo (scoresOf x0 x1 x2 x3 p) q k := by
  rw [val_main_v28_apply, val_main_v27_apply, val_main_v26_apply, i26, val_main_v25_apply, i25, ref_max, ref_scaled]
  rfl

theorem ref_den (p q : Fin 512) :
    val_main_v29 (F := Ideal) x0 x1 x2 x3 (ix3 (0 : Fin 1) p q) = ∑ k : Fin 512, expo (scoresOf x0 x1 x2 x3 p) q k := by
  rw [val_main_v29_apply, val_main_cst_5_apply]
  show Ideal.ofBits .f32 0x00000000#32 + _ = _
  rw [Ideal.ofBits_zero_f32, zero_add]
  refine Finset.sum_congr rfl fun k _ => ?_
  rw [i29, ref_exp]

theorem ref_weight (p q k : Fin 512) :
    val_main_v32 (F := Ideal) x0 x1 x2 x3 (ix4 (0 : Fin 1) p q k) = weight (scoresOf x0 x1 x2 x3 p) q k := by
  rw [val_main_v32_apply, val_main_v31_apply, i31, val_main_v30_apply, i30, ref_den, ref_exp]
  rfl

/-- The reference's result at (0, p, q, f) is row attention of row `p`. -/
theorem ref_out (p q : Fin 512) (f : Fin 128) :
    val_main_v33 (F := Ideal) x0 x1 x2 x3 x4 x5 (ix4 (0 : Fin 1) p q f)
      = attend (rowOf x0 p) (vecOf x1) (matOf x2) (matOf x3) (matOf x4) (vecOf x5) q f := by
  rw [val_main_v33_apply]
  unfold attend mix
  refine Finset.sum_congr rfl fun k _ => ?_
  rw [l33, r33, ref_weight, ref_v]

/-- The reference's result array is the specification's. -/
theorem ref_result : val_main_v33 (F := Ideal) x0 x1 x2 x3 x4 x5 = result x0 x1 x2 x3 x4 x5 := by
  funext i
  obtain ⟨u, p, q, f, rfl⟩ : ∃ (u : Fin 1) (p q : Fin 512) (f : Fin 128), i = ix4 u p q f :=
    ⟨i 0, i 1, i 2, i 3, eq_ix4 i⟩
  obtain rfl : u = 0 := Fin.eq_zero u
  rw [result_apply]
  exact ref_out x0 x1 x2 x3 x4 x5 p q f

end Cert.ReferenceIdeal.RefValue

end
-- ==== Proof.LibLayout3.lean ====
/-
  Layout operations of rank-2 and rank-3 arrays read at an index by coordinates, for any extents:
  a trailing or middle unit axis added to a matrix; a unit axis broadcast; a vector laid along the last axis of a rank-3 array;
  the two leading axes of a rank-3 array merged into one (row-major) and split again.
-/
import Idealize.ShloMosaic.Lib.Pipeline.Value
import Idealize.ShloMosaic.Lib.ValueIdx
import Idealize.ShloMosaic.Lib.ValueLayout

namespace Idealize.ShloMosaic.Layout3

open Idealize.ShloMosaic Idealize.ShloMosaic.ValueIdx

variable {α : Type}

/-- An `[a, b]` array cast to `[a, b, 1]` reads at `(i, j, u)` the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads at `(i, u, k)` the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads at `(u, v, k)` the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- An `[a, b, 1]` array broadcast to `[a, b, c]` reads at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (by
    intro d
    match d with
    | ⟨0, _⟩ =>
      show i.val = if a = 1 then 0 else i.val
      split
      · next e => have := i.isLt; omega
      · rfl
    | ⟨1, _⟩ =>
      show j.val = if b = 1 then 0 else j.val
      split
      · next e => have := j.isLt; omega
      · rfl
    | ⟨2, _⟩ => show (0 : ℕ) = if (1 : ℕ) = 1 then 0 else k.val; rw [if_pos rfl])

/-- An `[a, 1, c]` array broadcast to `[a, b, c]` reads at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (by
    intro d
    match d with
    | ⟨0, _⟩ =>
      show i.val = if a = 1 then 0 else i.val
      split
      · next e => have := i.isLt; omega
      · rfl
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- A `[1, 1, c]` array broadcast to `[a, b, c]` reads at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (by
    intro d
    match d with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- An `[a, b, c]` array with its two leading axes merged, `[n, c]` with `n = a·b`, reads at row `i·b + j` the operand at
    `(i, j, ·)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- And split again: an `[n, c]` array cast to `[a, b, c]` reads at `(i, j, k)` the operand at row `i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.Layout3
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibLane3.lean ====
/-
  Float lane reductions over the LAST axis of a rank-3 array, read at an index on the extended reals, for any extents:
  over [a, b, c] into [a, b], at (i, j), a lane sum into the zero accumulator is the sum of the c entries (i, j, ·), and a
  lane maximum is the fold of max from the accumulator's value over those entries.
-/
import Idealize.ShloMosaic.PureOps.Ideal.Laws
import Idealize.ShloMosaic.Lib.ValueIdx

noncomputable section

open scoped BigOperators

namespace Idealize.ShloMosaic.Lane3

open Idealize.ShloMosaic Idealize.ShloMosaic.ValueIdx

/-- The reduced index `(i, j)` with the last coordinate `k` put back is `(i, j, k)`. -/
theorem lift_last {a b c : ℕ} (h : (⟨3, ![a, b, c]⟩ : Shape).Reduces [2] ⟨2, ![a, b]⟩)
    (i : Fin a) (j : Fin b) (k : Fin c) : h.lift (ix2 i j) k = ix3 i j k :=
  funext fun x => Fin.ext (by match x with | ⟨0, _⟩ => rfl | ⟨1, _⟩ => rfl | ⟨2, _⟩ => rfl)

/-- A lane sum over the last axis of an `[a, b, c]` array, at `(i, j)`: the sum of the entries `(i, j, ·)`. -/
theorem multiReduction_add_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

/-- A lane maximum over the last axis of an `[a, b, c]` array, at `(i, j)`: the fold of max over the entries `(i, j, ·)`. -/
theorem multiReduction_max_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (Finset.fold_congr fun k _ => congrArg src (lift_last h i j k))

end Idealize.ShloMosaic.Lane3

end
-- ==== Proof.LibBatchContract.lean ====
/-
  Batched matrix products as plain sums, for any extents and any dimension record of the right shape.

  With one batch axis in front: a product of [B, M, K] with [B, N, K] contracting the LAST axis of both sums, at the
  result index (b, m, n), the products l (b, m, k) · r (b, n, k) over k < K; a product of [B, M, K] with [B, K, N]
  contracting the left operand's last axis with the right operand's middle one sums l (b, m, k) · r (b, k, n).
  What the record owes is one contracting axis of extent K at those positions, and free and batch axes that read the
  result's coordinates.
-/
import Idealize.ShloMosaic.Lib.ValueIdx

noncomputable section

open scoped BigOperators

namespace Idealize.ShloMosaic.BatchContract

open Idealize.ShloMosaic Idealize.ShloMosaic.ValueIdx

/-- `[B, M, K] · [B, N, K] → [B, M, N]`, the last axes contracted. -/
theorem sum_contr_last_last {B M N K : ℕ} {R : Type*} [AddCommMonoid R] [Mul R]
    (D : DotDims (⟨3, ![B, M, K]⟩ : Shape) (⟨3, ![B, N, K]⟩ : Shape) (⟨3, ![B, M, N]⟩ : Shape))
    (hr : D.contr.rank = 1) (hs : D.contr.size ⟨0, by omega⟩ = K)
    (hlc : D.lhsContracting = [2]) (hrc : D.rhsContracting = [2])
    (hl0 : ∀ j q, (D.lhsIdx j q 0).val = (j 0).val) (hl1 : ∀ j q, (D.lhsIdx j q 1).val = (j 1).val)
    (hr0 : ∀ j q, (D.rhsIdx j q 0).val = (j 0).val) (hr1 : ∀ j q, (D.rhsIdx j q 1).val = (j 2).val)
    (l : (⟨3, ![B, M, K]⟩ : Shape).Idx → R) (r : (⟨3, ![B, N, K]⟩ : Shape).Idx → R) (j : (⟨3, ![B, M, N]⟩ : Shape).Idx) :
    ∑ q : D.contr.Idx, l (D.lhsIdx j q) * r (D.rhsIdx j q)
      = ∑ k : Fin K, l (ix3 (j 0) (j 1) k) * r (ix3 (j 0) (j 2) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix3 (j 0) (j 1) k := funext fun a => Fin.ext (by
    match a with
    | ⟨0, _⟩ => exact hl0 _ _
    | ⟨1, _⟩ => exact hl1 _ _
    | ⟨2, _⟩ => exact h1.trans hk)
  have er : D.rhsIdx j ((contrEquiv1 D K hr hs).symm k) = ix3 (j 0) (j 2) k := funext fun a => Fin.ext (by
    match a with
    | ⟨0, _⟩ => exact hr0 _ _
    | ⟨1, _⟩ => exact hr1 _ _
    | ⟨2, _⟩ => exact h2.trans hk)
  exact congrArg₂ (· * ·) (congrArg l el) (congrArg r er)

/-- `[B, M, K] · [B, K, N] → [B, M, N]`, the left operand's last axis contracted with the right operand's middle one. -/
theorem sum_contr_last_mid {B M N K : ℕ} {R : Type*} [AddCommMonoid R] [Mul R]
    (D : DotDims (⟨3, ![B, M, K]⟩ : Shape) (⟨3, ![B, K, N]⟩ : Shape) (⟨3, ![B, M, N]⟩ : Shape))
    (hr : D.contr.rank = 1) (hs : D.contr.size ⟨0, by omega⟩ = K)
    (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (l : (⟨3, ![B, M, K]⟩ : Shape).Idx → R) (r : (⟨3, ![B, K, N]⟩ : Shape).Idx → R) (j : (⟨3, ![B, M, N]⟩ : Shape).Idx) :
    ∑ q : D.contr.Idx, l (D.lhsIdx j q) * r (D.rhsIdx j q)
      = ∑ k : Fin K, l (ix3 (j 0) (j 1) k) * r (ix3 (j 0) k (j 2)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix3 (j 0) (j 1) k := funext fun a => Fin.ext (by
    match a with
    | ⟨0, _⟩ => exact hl0 _ _
    | ⟨1, _⟩ => exact hl1 _ _
    | ⟨2, _⟩ => exact h1.trans hk)
  have er : D.rhsIdx j ((contrEquiv1 D K hr hs).symm k) = ix3 (j 0) k (j 2) := funext fun a => Fin.ext (by
    match a with
    | ⟨0, _⟩ => exact hr0 _ _
    | ⟨1, _⟩ => exact h2.trans hk
    | ⟨2, _⟩ => exact hr2 _ _)
  exact congrArg₂ (· * ·) (congrArg l el) (congrArg r er)

end Idealize.ShloMosaic.BatchContract

end
-- ==== Proof.KernelRow.lean ====
/-
  One grid point's block of the kernel is row attention of the block's four rows.

  The kernel's body works on a block of 4 rows × 512 tokens × 128 features. Read at an index, each of its values is a
  piece of the specification applied to ONE of the four rows: the normalised tokens (laid out as 2048 × 128, token
  a·512 + q of the block being token q of row a), the three linear maps (the weight blocks arrive transposed, so entry
  (f, g) of a block is the weight from input feature f to output feature g), the raw scores of each row against itself,
  their softmax, and the mixed values. Nothing a row's output reads belongs to another row.
-/
import proofs.«145544_j3539053052297_1_alg».proof.Proof.Gen.KernelIdeal.Frame
import proofs.«145544_j3539053052297_1_alg».proof.Proof.RowAttention
import proofs.«145544_j3539053052297_1_alg».proof.Proof.LibLayout3
import proofs.«145544_j3539053052297_1_alg».proof.Proof.LibContract
import proofs.«145544_j3539053052297_1_alg».proof.Proof.LibLane3
import proofs.«145544_j3539053052297_1_alg».proof.Proof.LibBatchContract
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx
open Cert.RowAttention

/-! ## A block's operands by coordinates -/

/-- Row `a` of a block of four rows. -/
def blkRow (x0 : Vec Ideal S4x512x128 .f32) (a : Fin 4) : Fin 512 → Fin 128 → EReal := fun q f => x0 (ix3 a q f)
/-- A [1, 128] block as a vector. -/
def blkVec (x1 : Vec Ideal S1x128 .f32) : Fin 128 → EReal := fun f => x1 (ix2 (0 : Fin 1) f)
/-- A weight block, which arrives transposed ([in, out]), as weights [out, in]. -/
def blkMatT (w : Vec Ideal S128x128 .bf16) : Fin 128 → Fin 128 → EReal := fun g f => w (ix2 f g)

/-- Token `q` of row `a` is token `a·512 + q` of the block flattened to 2048 tokens. -/
def flat (a : Fin 4) (q : Fin 512) : Fin 2048 := ⟨a.val * 512 + q.val, by have := a.isLt; have := q.isLt; omega⟩
theorem flat_val (a : Fin 4) (q : Fin 512) : (flat a q).val = a.val * 512 + q.val := rfl

/-! Congruence on the extended reals, spelt once so that each step below names the operation it peels. -/
theorem mul_congr {a a' b b' : EReal} (h1 : a = a') (h2 : b = b') : a * b = a' * b' := by rw [h1, h2]
theorem add_congr {a a' b b' : EReal} (h1 : a = a') (h2 : b = b') : a + b = a' + b' := by rw [h1, h2]
theorem sub_congr {a a' b b' : EReal} (h1 : a = a') (h2 : b = b') : a - b = a' - b' := by rw [h1, h2]
theorem div_congr {a a' b b' : EReal} (h1 : a = a') (h2 : b = b') : Ideal.div a b = Ideal.div a' b' := by rw [h1, h2]
theorem max_congr {a a' b b' : EReal} (h1 : a = a') (h2 : b = b') : max a b = max a' b' := by rw [h1, h2]

/-! ## The normalised tokens -/

/-- The flattened, normalised block at token `a·512 + q`, feature `f`, is the normalised token `q` of row `a`. -/
theorem pay2_apply (x0 : Vec Ideal S4x512x128 .f32) (x1 : Vec Ideal S1x128 .f32) (a : Fin 4) (q : Fin 512) (f : Fin 128) :
    k0_pay2 (F := Ideal) x0 x1 (ix2 (flat a q) f) = normed (blkRow x0 a) (blkVec x1) q f := by
  unfold k0_pay2
  refine (Layout3.shapeCast_abc_nc_apply _ _ a q f (flat a q) (flat_val a q)).trans ?_
  unfold normed
  refine mul_congr (mul_congr ?_ ?_) ?_
  · exact congrFun (shapeCast_self x0 _) _
  · refine (Layout3.broadcastTo_ab1_abc_apply _ _ a q f).trans ?_
    refine congrArg Ideal.rsqrt (add_congr (div_congr ?_ rfl) rfl)
    refine (Layout3.shapeCast_ab_ab1_apply _ _ a q (0 : Fin 1)).trans ?_
    refine (Lane3.multiReduction_add_last_apply _ _ _ _ _ a q).trans ?_
    refine Finset.sum_congr rfl fun k _ => ?_
    exact mul_congr (congrFun (shapeCast_self x0 _) _) (congrFun (shapeCast_self x0 _) _)
  · refine (Layout3.broadcastTo_11c_abc_apply _ _ a q f).trans ?_
    refine (Layout3.shapeCast_ac_a1c_apply _ _ (0 : Fin 1) (0 : Fin 1) f).trans ?_
    exact congrFun (shapeCast_self x1 _) _

/-! ## The three linear maps -/

/-- The [2048, 128] · [128, 128] products read the result's row in the left operand … -/
theorem dproj_l0 (j : S2048x128.Idx) (q : dot_S2048x128_S128x128_S2048x128_1_0_0_1_n_n.contr.Idx) : (dot_S2048x128_S128x128_S2048x128_1_0_0_1_n_n.lhsIdx j q 0).val = (j 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl
/-- … and its column in the right one. -/
theorem dproj_r1 (j : S2048x128.Idx) (q : dot_S2048x128_S128x128_S2048x128_1_0_0_1_n_n.contr.Idx) : (dot_S2048x128_S128x128_S2048x128_1_0_0_1_n_n.rhsIdx j q 1).val = (j 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- A linear map of the flattened normalised block by a transposed weight block, at token `a·512 + q` and output
    feature `g`: the map of the specification applied to row `a`. -/
theorem proj_apply (x0 : Vec Ideal S4x512x128 .f32) (x1 : Vec Ideal S1x128 .f32) (w : FVec Ideal S128x128 .bf16)
    (a : Fin 4) (q : Fin 512) (g : Fin 128) :
    matmul dot_S2048x128_S128x128_S2048x128_1_0_0_1_n_n none (k0_pay2 (F := Ideal) x0 x1)
        (shapeCast S128x128 w shapeCasts_S128x128_S128x128 : FVec Ideal S128x128 .bf16)
        (constant (F := Ideal) S2048x128 .f32 0x00000000#32) (ix2 (flat a q) g)
      = proj (normed (blkRow x0 a) (blkVec x1)) (blkMatT w) q g := by
  refine (Ideal.matmul_constant_zero_apply _ none _ _ (ix2 (flat a q) g)).trans ?_
  refine (Contract2.sum_contr_eq_sum_fin dot_S2048x128_S128x128_S2048x128_1_0_0_1_n_n rfl rfl rfl rfl dproj_l0 dproj_r1 _ _ (ix2 (flat a q) g)).trans ?_
  unfold proj
  refine Finset.sum_congr rfl fun k _ => ?_
  exact mul_congr (pay2_apply x0 x1 a q k) (congrFun (shapeCast_self w _) _)

/-- The values of a block: the linear map plus the bias row. -/
theorem pay3_apply (x0 : Vec Ideal S4x512x128 .f32) (x1 : Vec Ideal S1x128 .f32) (x4 : Vec Ideal S128x128 .bf16)
    (x5 : Vec Ideal S1x128 .f32) (a : Fin 4) (q : Fin 512) (g : Fin 128) :
    k0_pay3 (F := Ideal) x0 x1 x4 x5 (ix3 a q g)
      = values (normed (blkRow x0 a) (blkVec x1)) (blkMatT x4) (blkVec x5) q g := by
  unfold k0_pay3
  refine (truncf_apply (φ := .f32) (ψ := .bf16) _ _ _).trans ?_
  refine (Layout3.shapeCast_nc_abc_apply _ _ a q g (flat a q) (flat_val a q)).trans ?_
  unfold values
  refine add_congr (proj_apply x0 x1 x4 a q g) ?_
  refine (broadcastTo_1b_ab_apply _ _ (flat a q) g).trans ?_
  exact congrFun (shapeCast_self x5 _) _

/-! ## The raw scores -/

theorem dqk_l0 (j : S4x512x512.Idx) (q : dot_S4x512x128_S4x512x128_S4x512x512_2_2_1_1_0_0.contr.Idx) : (dot_S4x512x128_S4x512x128_S4x512x512_2_2_1_1_0_0.lhsIdx j q 0).val = (j 0).val := by
  unfold DotDims.lhsIdx
  rw [dif_pos (show (0 : Fin S4x512x128.rank) ∈ dot_S4x512x128_S4x512x128_S4x512x512_2_2_1_1_0_0.lhsBatch by decide)]
  rfl
theorem dqk_l1 (j : S4x512x512.Idx) (q : dot_S4x512x128_S4x512x128_S4x512x512_2_2_1_1_0_0.contr.Idx) : (dot_S4x512x128_S4x512x128_S4x512x512_2_2_1_1_0_0.lhsIdx j q 1).val = (j 1).val := by
  unfold DotDims.lhsIdx
  rw [dif_neg (show ¬(1 : Fin S4x512x128.rank) ∈ dot_S4x512x128_S4x512x128_S4x512x512_2_2_1_1_0_0.lhsBatch by decide),
    dif_pos (show (1 : Fin S4x512x128.rank) ∈ dot_S4x512x128_S4x512x128_S4x512x512_2_2_1_1_0_0.lhsNonContracting by decide)]
  rfl
theorem dqk_r0 (j : S4x512x512.Idx) (q : dot_S4x512x128_S4x512x128_S4x512x512_2_2_1_1_0_0.contr.Idx) : (dot_S4x512x128_S4x512x128_S4x512x512_2_2_1_1_0_0.rhsIdx j q 0).val = (j 0).val := by
  unfold DotDims.rhsIdx
  rw [dif_pos (show (0 : Fin S4x512x128.rank) ∈ dot_S4x512x128_S4x512x128_S4x512x512_2_2_1_1_0_0.rhsBatch by decide)]
  rfl
theorem dqk_r1 (j : S4x512x512.Idx) (q : dot_S4x512x128_S4x512x128_S4x512x512_2_2_1_1_0_0.contr.Idx) : (dot_S4x512x128_S4x512x128_S4x512x512_2_2_1_1_0_0.rhsIdx j q 1).val = (j 2).val := by
  unfold DotDims.rhsIdx
  rw [dif_neg (show ¬(1 : Fin S4x512x128.rank) ∈ dot_S4x512x128_S4x512x128_S4x512x512_2_2_1_1_0_0.rhsBatch by decide),
    dif_pos (show (1 : Fin S4x512x128.rank) ∈ dot_S4x512x128_S4x512x128_S4x512x512_2_2_1_1_0_0.rhsNonContracting by decide)]
  rfl

/-- The raw scores of a block at (a, q, k): query `q` against key `k`, both of row `a`. -/
theorem pay4_apply (x0 : Vec Ideal S4x512x128 .f32) (x1 : Vec Ideal S1x128 .f32) (x2 x3 : Vec Ideal S128x128 .bf16)
    (a : Fin 4) (q k : Fin 512) :
    k0_pay4 (F := Ideal) x0 x1 x2 x3 (ix3 a q k)
      = rawScore (proj (normed (blkRow x0 a) (blkVec x1)) (blkMatT x2))
          (proj (normed (blkRow x0 a) (blkVec x1)) (blkMatT x3)) q k := by
  unfold k0_pay4
  refine (Ideal.matmul_constant_zero_apply _ none _ _ (ix3 a q k)).trans ?_
  refine (BatchContract.sum_contr_last_last dot_S4x512x128_S4x512x128_S4x512x512_2_2_1_1_0_0 rfl rfl rfl rfl dqk_l0 dqk_l1 dqk_r0 dqk_r1 _ _ (ix3 a q k)).trans ?_
  unfold rawScore
  refine Finset.sum_congr rfl fun g _ => ?_
  refine mul_congr ?_ ?_
  · refine (truncf_apply (φ := .f32) (ψ := .bf16) _ _ _).trans ?_
    refine (Layout3.shapeCast_nc_abc_apply _ _ a q g (flat a q) (flat_val a q)).trans ?_
    exact proj_apply x0 x1 x2 a q g
  · refine (truncf_apply (φ := .f32) (ψ := .bf16) _ _ _).trans ?_
    refine (Layout3.shapeCast_nc_abc_apply _ _ a k g (flat a k) (flat_val a k)).trans ?_
    exact proj_apply x0 x1 x3 a k g

end Cert.KernelIdeal.RowValue

end
-- ==== Proof.KernelSoftmax.lean ====
/-
  The softmax of a block's scores and the mix of its values, and with them the whole body: the output block at
  (a, q, f) is row attention of row `a` of the input block.
-/
import proofs.«145544_j3539053052297_1_alg».proof.Proof.KernelRow

noncomputable section

open scoped BigOperators

namespace Cert.KernelIdeal.RowValue

open Cert.KernelIdeal Cert.KernelIdeal.Gen Idealize.ShloMosaic Idealize.ShloMosaic.ValueIdx
open Cert.RowAttention

/-! ## The softmax and the mix -/

/-! The dimension record of the last product reads the batch and the query in the weights, the batch and the feature in the values. -/
theorem dpv_l0 (j : S4x512x128.Idx) (q : dot_S4x512x512_S4x512x128_S4x512x128_2_1_1_2_0_0.contr.Idx) : (dot_S4x512x512_S4x512x128_S4x512x128_2_1_1_2_0_0.lhsIdx j q 0).val = (j 0).val := by
  unfold DotDims.lhsIdx
  rw [dif_pos (show (0 : Fin S4x512x512.rank) ∈ dot_S4x512x512_S4x512x128_S4x512x128_2_1_1_2_0_0.lhsBatch by decide)]
  rfl
theorem dpv_l1 (j : S4x512x128.Idx) (q : dot_S4x512x512_S4x512x128_S4x512x128_2_1_1_2_0_0.contr.Idx) : (dot_S4x512x512_S4x512x128_S4x512x128_2_1_1_2_0_0.lhsIdx j q 1).val = (j 1).val := by
  unfold DotDims.lhsIdx
  rw [dif_neg (show ¬(1 : Fin S4x512x512.rank) ∈ dot_S4x512x512_S4x512x128_S4x512x128_2_1_1_2_0_0.lhsBatch by decide),
    dif_pos (show (1 : Fin S4x512x512.rank) ∈ dot_S4x512x512_S4x512x128_S4x512x128_2_1_1_2_0_0.lhsNonContracting by decide)]
  rfl
theorem dpv_r0 (j : S4x512x128.Idx) (q : dot_S4x512x512_S4x512x128_S4x512x128_2_1_1_2_0_0.contr.Idx) : (dot_S4x512x512_S4x512x128_S4x512x128_2_1_1_2_0_0.rhsIdx j q 0).val = (j 0).val := by
  unfold DotDims.rhsIdx
  rw [dif_pos (show (0 : Fin S4x512x128.rank) ∈ dot_S4x512x512_S4x512x128_S4x512x128_2_1_1_2_0_0.rhsBatch by decide)]
  rfl
theorem dpv_r2 (j : S4x512x128.Idx) (q : dot_S4x512x512_S4x512x128_S4x512x128_2_1_1_2_0_0.contr.Idx) : (dot_S4x512x512_S4x512x128_S4x512x128_2_1_1_2_0_0.rhsIdx j q 2).val = (j 2).val := by
  unfold DotDims.rhsIdx
  rw [dif_neg (show ¬(2 : Fin S4x512x128.rank) ∈ dot_S4x512x512_S4x512x128_S4x512x128_2_1_1_2_0_0.rhsBatch by decide),
    dif_pos (show (2 : Fin S4x512x128.rank) ∈ dot_S4x512x512_S4x512x128_S4x512x128_2_1_1_2_0_0.rhsNonContracting by decide)]
  rfl

section Softmax

variable (v38 : FVec Ideal S4x512x512 .f32)

/-- The body's values between the raw scores and the last product, named: the scaled scores, -/
def kScaled : FVec Ideal S4x512x512 .f32 :=
  mulf v38 (broadcast S4x512x512 (Scalar.ofBits (F := Ideal) .f32 0x3DB504F3#32))
/-- their maxima over the keys, -/
def kMax : FVec Ideal S4x512 .f32 :=
  maximumf (broadcast S4x512 (Scalar.ofBits (F := Ideal) .f32 0xFF800000#32))
    (multiReduction .maximumf [2] S4x512 (kScaled v38) 0xFF800000#32 reduces_S4x512x512_S4x512 (.inl rfl) rfl)
/-- the shifted exponentials, -/
def kExp : FVec Ideal S4x512x512 .f32 :=
  exp (subf (kScaled v38) (broadcastTo S4x512x512 (shapeCast S4x512x1 (kMax v38) shapeCasts_S4x512_S4x512x1)
    broadcasts_S4x512x1_S4x512x512))
/-- their sums over the keys, -/
def kDen : FVec Ideal S4x512 .f32 :=
  multiReduction .add [2] S4x512 (kExp v38) 0x00000000#32 reduces_S4x512x512_S4x512 (.inl rfl) rfl
/-- and the weights. -/
def kWeight : FVec Ideal S4x512x512 .f32 :=
  divf (kExp v38) (broadcastTo S4x512x512 (shapeCast S4x512x1 (kDen v38) shapeCasts_S4x512_S4x512x1)
    broadcasts_S4x512x1_S4x512x512)

/-- The body's last payload is the product of those weights with the values. -/
theorem pay1_eq (v37 : FVec Ideal S4x512x128 .bf16) : k0_pay1 (F := Ideal) v37 v38
    = matmul dot_S4x512x512_S4x512x128_S4x512x128_2_1_1_2_0_0 none (truncf .bf16 (kWeight v38) bitsLt_bf16_f32) v37
        (constant (F := Ideal) S4x512x128 .f32 0x00000000#32) := rfl

variable (S : Fin 512 → Fin 512 → EReal) (a : Fin 4) (hS : ∀ q k, v38 (ix3 a q k) = S q k)
include hS

theorem kScaled_apply (q k : Fin 512) : kScaled v38 (ix3 a q k) = scaled S q k := by
  unfold kScaled scaled
  exact mul_congr (hS q k) rfl

theorem kMax_apply (q : Fin 512) : kMax v38 (ix2 a q) = rowMax S q := by
  unfold kMax rowMax
  refine (maximumf_apply _ _ _).trans ?_
  refine congrArg₂ max ?_ ?_
  · rfl
  · refine (Lane3.multiReduction_max_last_apply _ _ _ _ _ a q).trans ?_
    exact Finset.fold_congr fun k _ => kScaled_apply v38 S a hS q k

theorem kExp_apply (q k : Fin 512) : kExp v38 (ix3 a q k) = expo S q k := by
  unfold kExp expo
  refine congrArg Ideal.exp (sub_congr (kScaled_apply v38 S a hS q k) ?_)
  refine (Layout3.broadcastTo_ab1_abc_apply _ _ a q k).trans ?_
  refine (Layout3.shapeCast_ab_ab1_apply _ _ a q (0 : Fin 1)).trans ?_
  exact kMax_apply v38 S a hS q

theorem kDen_apply (q : Fin 512) : kDen v38 (ix2 a q) = ∑ k : Fin 512, expo S q k := by
  unfold kDen
  refine (Lane3.multiReduction_add_last_apply _ _ _ _ _ a q).trans ?_
  exact Finset.sum_congr rfl fun k _ => kExp_apply v38 S a hS q k

theorem kWeight_apply (q k : Fin 512) : kWeight v38 (ix3 a q k) = weight S q k := by
  unfold kWeight weight
  refine div_congr (kExp_apply v38 S a hS q k) ?_
  refine (Layout3.broadcastTo_ab1_abc_apply _ _ a q k).trans ?_
  refine (Layout3.shapeCast_ab_ab1_apply _ _ a q (0 : Fin 1)).trans ?_
  exact kDen_apply v38 S a hS q

/-- The body's last payload at (a, q, f): the values of row `a` mixed with the softmax weights of its scores. -/
theorem pay1_apply (v37 : FVec Ideal S4x512x128 .bf16) (V : Fin 512 → Fin 128 → EReal)
    (hV : ∀ k f, v37 (ix3 a k f) = V k f) (q : Fin 512) (f : Fin 128) :
    k0_pay1 (F := Ideal) v37 v38 (ix3 a q f) = mix S V q f := by
  rw [pay1_eq]
  refine (Ideal.matmul_constant_zero_apply _ none _ _ (ix3 a q f)).trans ?_
  refine (BatchContract.sum_contr_last_mid dot_S4x512x512_S4x512x128_S4x512x128_2_1_1_2_0_0 rfl rfl rfl rfl dpv_l0 dpv_l1 dpv_r0 dpv_r2 _ _ (ix3 a q f)).trans ?_
  unfold mix
  refine Finset.sum_congr rfl fun k _ => ?_
  exact mul_congr (kWeight_apply v38 S a hS q k) (hV k f)

end Softmax

/-! ## What the body leaves in the output block -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output block at (a, q, f) is row attention of row `a` of the input block at (q, f). -/
theorem out_apply (x0 : Vec Ideal S4x512x128 .f32) (x1 : Vec Ideal S1x128 .f32) (x2 x3 x4 : Vec Ideal S128x128 .bf16)
    (x5 : Vec Ideal S1x128 .f32) (a : Fin 4) (q : Fin 512) (f : Fin 128) :
    out0_6 (F := Ideal) x0 x1 x2 x3 x4 x5 (ix3 a q f)
      = attend (blkRow x0 a) (blkVec x1) (blkMatT x2) (blkMatT x3) (blkMatT x4) (blkVec x5) q f := by
  unfold out0_6
  rw [View.canon_unit_zero hz3]
  simp only [View.ld_unit_zero (S := S4x512x128) hz3, View.ld_unit_zero (S := S1x128) hz2,
    View.ld_unit_zero (S := S128x128) hz2]
  unfold attend
  exact pay1_apply _ _ a (fun q k => pay4_apply x0 x1 x2 x3 a q k) _ _ (fun k g => pay3_apply x0 x1 x4 x5 a k g) q f

end Cert.KernelIdeal.RowValue

end
-- ==== Proof.KernelArray.lean ====
/-
  From blocks to the whole array, and through the host operations around the region.

  Before the region the host lays the input out as 512 rows, transposes the three weight matrices and turns the two
  vectors into rows; the region's grid has 128 points, point `t` working on rows 4t … 4t+3 and every point on the same
  weights, scale and bias; after it the host puts the leading unit axis back. Since a row's output reads only that
  row, point `t` writes back block `t` of ONE array — row attention of every row —, the 128 blocks tile the 512 rows,
  and the reshape after the region changes no entry.
-/
import proofs.«145544_j3539053052297_1_alg».proof.Proof.KernelSoftmax
import Idealize.ShloMosaic.Lib.StableHlo.Run

noncomputable section

open scoped BigOperators

namespace Cert.KernelIdeal.RowValue

open Cert.KernelIdeal Cert.KernelIdeal.Gen Idealize.ShloMosaic Idealize.ShloMosaic.TcCoe Idealize.SL.Sem
open Idealize.ShloMosaic.ValueIdx Cert.RowAttention
open Idealize.ShloMosaic.Pipeline (Dat)

variable (m : (ℓ : Loc nD τ sig) → Buf (Elt Ideal) ℓ) (ρ : Dev nD → PrngReg)

/-! ## The arrays as the region finds them -/

/-- The input laid out as 512 rows. -/
theorem V_v0 (c : Dev nD) : (V m c main_v0 : S512x512x128.Idx → EReal)
    = shapeCast S512x512x128 (m ((c : Thread nD τ).loc main_arg0)) shapeCasts_S1x512x512x128_S512x512x128 := by
  show StableHlo.after hostOps0 (fun b => m (c, b)) (Proc.devRef .tc main_v0) = _
  after_results
  rfl

/-- The query weights transposed. -/
theorem V_v2 (c : Dev nD) : (V m c main_v2 : S128x128.Idx → EReal)
    = (truncf .bf16 (transpose S128x128 [1, 0] (m ((c : Thread nD τ).loc main_arg2) : FVec Ideal S128x128 .f32)
        transposes_S128x128_S128x128_1_0) bitsLt_bf16_f32 : FVec Ideal S128x128 .bf16) := by
  show StableHlo.after hostOps0 (fun b => m (c, b)) (Proc.devRef .tc main_v2) = _
  after_results

/-- The key weights transposed. -/
theorem V_v4 (c : Dev nD) : (V m c main_v4 : S128x128.Idx → EReal)
    = (truncf .bf16 (transpose S128x128 [1, 0] (m ((c : Thread nD τ).loc main_arg3) : FVec Ideal S128x128 .f32)
        transposes_S128x128_S128x128_1_0) bitsLt_bf16_f32 : FVec Ideal S128x128 .bf16) := by
  show StableHlo.after hostOps0 (fun b => m (c, b)) (Proc.devRef .tc main_v4) = _
  after_results

/-- The value weights transposed. -/
theorem V_v6 (c : Dev nD) : (V m c main_v6 : S128x128.Idx → EReal)
    = (truncf .bf16 (transpose S128x128 [1, 0] (m ((c : Thread nD τ).loc main_arg4) : FVec Ideal S128x128 .f32)
        transposes_S128x128_S128x128_1_0) bitsLt_bf16_f32 : FVec Ideal S128x128 .bf16) := by
  show StableHlo.after hostOps0 (fun b => m (c, b)) (Proc.devRef .tc main_v6) = _
  after_results

/-- The scale as a row. -/
theorem V_v7 (c : Dev nD) : (V m c main_v7 : S1x128.Idx → EReal)
    = shapeCast S1x128 (m ((c : Thread nD τ).loc main_arg1)) shapeCasts_S128_S1x128 := by
  show StableHlo.after hostOps0 (fun b => m (c, b)) (Proc.devRef .tc main_v7) = _
  after_results
  rfl

/-- The bias as a row. -/
theorem V_v8 (c : Dev nD) : (V m c main_v8 : S1x128.Idx → EReal)
    = shapeCast S1x128 (m ((c : Thread nD τ).loc main_arg5)) shapeCasts_S128_S1x128 := by
  show StableHlo.after hostOps0 (fun b => m (c, b)) (Proc.devRef .tc main_v8) = _
  after_results
  rfl

theorem V_v0_apply (c : Dev nD) (p q : Fin 512) (f : Fin 128) :
    V m c main_v0 (ix3 p q f) = m ((c : Thread nD τ).loc main_arg0) (ix4 (0 : Fin 1) p q f) :=
  (congrFun (V_v0 m c) (ix3 p q f)).trans (shapeCast_1abc_abc_apply _ _ p q f)

/-- A transposed weight matrix at (f, g) is the weight from input feature `f` to output feature `g`. -/
theorem transposed_apply (w : FVec Ideal S128x128 .f32) (f g : Fin 128) :
    (truncf .bf16 (transpose S128x128 [1, 0] w transposes_S128x128_S128x128_1_0) bitsLt_bf16_f32 : FVec Ideal S128x128 .bf16)
      (ix2 f g) = w (ix2 g f) :=
  (truncf_apply (φ := .f32) (ψ := .bf16) _ _ _).trans (transpose_ix2_apply _ _ f g)

theorem V_v2_apply (c : Dev nD) (f g : Fin 128) :
    V m c main_v2 (ix2 f g) = m ((c : Thread nD τ).loc main_arg2) (ix2 g f) :=
  (congrFun (V_v2 m c) (ix2 f g)).trans (transposed_apply _ f g)
theorem V_v4_apply (c : Dev nD) (f g : Fin 128) :
    V m c main_v4 (ix2 f g) = m ((c : Thread nD τ).loc main_arg3) (ix2 g f) :=
  (congrFun (V_v4 m c) (ix2 f g)).trans (transposed_apply _ f g)
theorem V_v6_apply (c : Dev nD) (f g : Fin 128) :
    V m c main_v6 (ix2 f g) = m ((c : Thread nD τ).loc main_arg4) (ix2 g f) :=
  (congrFun (V_v6 m c) (ix2 f g)).trans (transposed_apply _ f g)
theorem V_v7_apply (c : Dev nD) (u : Fin 1) (f : Fin 128) :
    V m c main_v7 (ix2 u f) = m ((c : Thread nD τ).loc main_arg1) (ix1 f) :=
  (congrFun (V_v7 m c) (ix2 u f)).trans (shapeCast_a_1a_apply _ _ u f)
theorem V_v8_apply (c : Dev nD) (u : Fin 1) (f : Fin 128) :
    V m c main_v8 (ix2 u f) = m ((c : Thread nD τ).loc main_arg5) (ix1 f) :=
  (congrFun (V_v8 m c) (ix2 u f)).trans (shapeCast_a_1a_apply _ _ u f)

/-! ## The blocks a grid point works on -/

/-- The printed index maps, decided over the 128 grid points: the input and the output move one block of four rows per
    point, the scale, the three weight matrices and the bias stay where they are. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Row `a` of point `t`'s block is row `4t + a` of the array. -/
def rowAt (t : Fin cfg0.N) (a : Fin 4) : Fin 512 :=
  ⟨t.val * 4 + a.val, by have := lt_of_lt_of_eq t.isLt N_0; have := a.isLt; omega⟩

/-- The input block at a point: four rows of the input. -/
theorem iblk0_apply (c : Dev nD) (t : Fin cfg0.N) (a : Fin 4) (q : Fin 512) (f : Fin 128) :
    iblk m c 0 t (ix3 a q f) = m ((c : Thread nD τ).loc main_arg0) (ix4 (0 : Fin 1) (rowAt t a) q f) := by
  obtain ⟨e0, e1, e2, -⟩ := idx_facts t
  have e : ((cfg0.win 0).blk t).view.emb (ix3 a q f) = (ix3 (rowAt t a) q f : S512x512x128.Idx) := by
    funext x; apply Fin.ext
    match x with
    | ⟨0, _⟩ => show win0_0.index t (0 : Fin 3) * 4 + 1 * a.val = t.val * 4 + a.val; omega
    | ⟨1, _⟩ => show win0_0.index t (1 : Fin 3) * 512 + 1 * q.val = q.val; omega
    | ⟨2, _⟩ => show win0_0.index t (2 : Fin 3) * 128 + 1 * f.val = f.val; omega
  show V m c main_v0 (((cfg0.win 0).blk t).view.emb (ix3 a q f)) = _
  rw [e]
  exact V_v0_apply m c (rowAt t a) q f

/-- The scale block is the scale vector, at every point. -/
theorem iblk1_apply (c : Dev nD) (t : Fin cfg0.N) (u : Fin 1) (f : Fin 128) :
    iblk m c 1 t (ix2 u f) = m ((c : Thread nD τ).loc main_arg1) (ix1 f) := by
  obtain ⟨-, -, -, e0, e1, -⟩ := idx_facts t
  have e : ((cfg0.win 1).blk t).view.emb (ix2 u f) = (ix2 u f : S1x128.Idx) := by
    funext x; apply Fin.ext
    match x with
    | ⟨0, _⟩ => show win0_1.index t (0 : Fin 2) * 1 + 1 * u.val = u.val; omega
    | ⟨1, _⟩ => show win0_1.index t (1 : Fin 2) * 128 + 1 * f.val = f.val; omega
  show V m c main_v7 (((cfg0.win 1).blk t).view.emb (ix2 u f)) = _
  rw [e]
  exact V_v7_apply m c u f

/-- The query-weight block is the transposed query weights, at every point. -/
theorem iblk2_apply (c : Dev nD) (t : Fin cfg0.N) (f g : Fin 128) :
    iblk m c 2 t (ix2 f g) = m ((c : Thread nD τ).loc main_arg2) (ix2 g f) := by
  obtain ⟨-, -, -, -, -, e0, e1, -⟩ := idx_facts t
  have e : ((cfg0.win 2).blk t).view.emb (ix2 f g) = (ix2 f g : S128x128.Idx) := by
    funext x; apply Fin.ext
    match x with
    | ⟨0, _⟩ => show win0_2.index t (0 : Fin 2) * 128 + 1 * f.val = f.val; omega
    | ⟨1, _⟩ => show win0_2.index t (1 : Fin 2) * 128 + 1 * g.val = g.val; omega
  show V m c main_v2 (((cfg0.win 2).blk t).view.emb (ix2 f g)) = _
  rw [e]
  exact V_v2_apply m c f g

/-- The key-weight block likewise. -/
theorem iblk3_apply (c : Dev nD) (t : Fin cfg0.N) (f g : Fin 128) :
    iblk m c 3 t (ix2 f g) = m ((c : Thread nD τ).loc main_arg3) (ix2 g f) := by
  obtain ⟨-, -, -, -, -, -, -, e0, e1, -⟩ := idx_facts t
  have e : ((cfg0.win 3).blk t).view.emb (ix2 f g) = (ix2 f g : S128x128.Idx) := by
    funext x; apply Fin.ext
    match x with
    | ⟨0, _⟩ => show win0_3.index t (0 : Fin 2) * 128 + 1 * f.val = f.val; omega
    | ⟨1, _⟩ => show win0_3.index t (1 : Fin 2) * 128 + 1 * g.val = g.val; omega
  show V m c main_v4 (((cfg0.win 3).blk t).view.emb (ix2 f g)) = _
  rw [e]
  exact V_v4_apply m c f g

/-- The value-weight block likewise. -/
theorem iblk4_apply (c : Dev nD) (t : Fin cfg0.N) (f g : Fin 128) :
    iblk m c 4 t (ix2 f g) = m ((c : Thread nD τ).loc main_arg4) (ix2 g f) := by
  obtain ⟨-, -, -, -, -, -, -, -, -, e0, e1, -⟩ := idx_facts t
  have e : ((cfg0.win 4).blk t).view.emb (ix2 f g) = (ix2 f g : S128x128.Idx) := by
    funext x; apply Fin.ext
    match x with
    | ⟨0, _⟩ => show win0_4.index t (0 : Fin 2) * 128 + 1 * f.val = f.val; omega
    | ⟨1, _⟩ => show win0_4.index t (1 : Fin 2) * 128 + 1 * g.val = g.val; omega
  show V m c main_v6 (((cfg0.win 4).blk t).view.emb (ix2 f g)) = _
  rw [e]
  exact V_v6_apply m c f g

/-- The bias block is the bias vector, at every point. -/
theorem iblk5_apply (c : Dev nD) (t : Fin cfg0.N) (u : Fin 1) (f : Fin 128) :
    iblk m c 5 t (ix2 u f) = m ((c : Thread nD τ).loc main_arg5) (ix1 f) := by
  obtain ⟨-, -, -, -, -, -, -, -, -, -, -, e0, e1, -⟩ := idx_facts t
  have e : ((cfg0.win 5).blk t).view.emb (ix2 u f) = (ix2 u f : S1x128.Idx) := by
    funext x; apply Fin.ext
    match x with
    | ⟨0, _⟩ => show win0_5.index t (0 : Fin 2) * 1 + 1 * u.val = u.val; omega
    | ⟨1, _⟩ => show win0_5.index t (1 : Fin 2) * 128 + 1 * f.val = f.val; omega
  show V m c main_v8 (((cfg0.win 5).blk t).view.emb (ix2 u f)) = _
  rw [e]
  exact V_v8_apply m c u f

/-! ## What a point writes back, and the array after the region -/

/-- The array the region leaves: row attention of every row of the input. -/
def rows (c : Dev nD) : S512x512x128.Idx → EReal := fun j =>
  attend (rowOf (m ((c : Thread nD τ).loc main_arg0)) (j 0)) (vecOf (m ((c : Thread nD τ).loc main_arg1)))
    (matOf (m ((c : Thread nD τ).loc main_arg2))) (matOf (m ((c : Thread nD τ).loc main_arg3)))
    (matOf (m ((c : Thread nD τ).loc main_arg4))) (vecOf (m ((c : Thread nD τ).loc main_arg5))) (j 1) (j 2)

/-- The body's output block at any index of the block. -/
theorem out_apply' (x0 : Vec Ideal S4x512x128 .f32) (x1 : Vec Ideal S1x128 .f32) (x2 x3 x4 : Vec Ideal S128x128 .bf16)
    (x5 : Vec Ideal S1x128 .f32) (y : S4x512x128.Idx) :
    out0_6 (F := Ideal) x0 x1 x2 x3 x4 x5 y
      = attend (blkRow x0 (y 0)) (blkVec x1) (blkMatT x2) (blkMatT x3) (blkMatT x4) (blkVec x5) (y 1) (y 2) := by
  exact (congrArg (out0_6 (F := Ideal) x0 x1 x2 x3 x4 x5) (eq_ix3 y)).trans
    (out_apply x0 x1 x2 x3 x4 x5 (y 0) (y 1) (y 2))

/-- Row attention depends on its operands and its position only through their values. -/
theorem attend_congr {X X' : Fin 512 → Fin 128 → EReal} {NS NS' : Fin 128 → EReal}
    {WQ WQ' WK WK' WV WV' : Fin 128 → Fin 128 → EReal} {BV BV' : Fin 128 → EReal} {q q' : Fin 512} {f f' : Fin 128}
    (hX : X = X') (hNS : NS = NS') (hWQ : WQ = WQ') (hWK : WK = WK') (hWV : WV = WV') (hBV : BV = BV')
    (hq : q = q') (hf : f = f') : attend X NS WQ WK WV BV q f = attend X' NS' WQ' WK' WV' BV' q' f' := by
  subst hX hNS hWQ hWK hWV hBV hq hf; rfl

/-- WHAT POINT `t` WRITES BACK is block `t` of `rows`: its four rows are rows 4t … 4t+3 of the input, and the scale, the
    weights and the bias are the same at every point. -/
theorem flushed_eq (c : Dev nD) (t : Fin cfg0.N) :
    (dats m 0 c).flushed 6 t = ((cfg0.win 6).blk t).view.read (Elt Ideal) (rows m c) := by
  show (cfg0.win 6).cut (grid0.coords t) ((dats m 0 c).after 6 t) = _
  rw [after0_6]
  obtain ⟨-, -, -, -, -, -, -, -, -, -, -, -, -, e0, e1, e2⟩ := idx_facts t
  funext y
  show out0_6 (iblk m c 0 t) (iblk m c 1 t) (iblk m c 2 t) (iblk m c 3 t) (iblk m c 4 t) (iblk m c 5 t) y
    = rows m c (((cfg0.win 6).blk t).view.emb y)
  refine (out_apply' _ _ _ _ _ _ y).trans ?_
  unfold rows
  refine attend_congr ?_ ?_ ?_ ?_ ?_ ?_ ?_ ?_
  · funext q f
    refine (iblk0_apply m c t (y 0) q f).trans ?_
    refine congrArg (fun p : Fin 512 => m ((c : Thread nD τ).loc main_arg0) (ix4 (0 : Fin 1) p q f)) (Fin.ext ?_)
    show t.val * 4 + (y 0).val = win0_6.index t (0 : Fin 3) * 4 + 1 * (y 0).val
    omega
  · funext f; exact iblk1_apply m c t (0 : Fin 1) f
  · funext g f; exact iblk2_apply m c t f g
  · funext g f; exact iblk3_apply m c t f g
  · funext g f; exact iblk4_apply m c t f g
  · funext f; exact iblk5_apply m c t (0 : Fin 1) f
  · refine Fin.ext ?_
    show (y 1).val = win0_6.index t (1 : Fin 3) * 512 + 1 * (y 1).val
    omega
  · refine Fin.ext ?_
    show (y 2).val = win0_6.index t (2 : Fin 3) * 128 + 1 * (y 2).val
    omega

/-- Every row of the array is in some point's block: row `r` in block `r / 4`. -/
theorem cover (i : S512x512x128.Idx) :
    ∃ t : Fin cfg0.N, (cfg0.win 6).flush t = true ∧ i ∈ ((cfg0.win 6).blk t).view.set := by
  have h0 : (i 0).val < 512 := (i 0).isLt
  have h1 : (i 1).val < 512 := (i 1).isLt
  have h2 : (i 2).val < 128 := (i 2).isLt
  have hN : (i 0).val / 4 < cfg0.N := lt_of_lt_of_eq (by omega : (i 0).val / 4 < 128) N_0.symm
  obtain ⟨-, -, -, -, -, -, -, -, -, -, -, -, -, e0, e1, e2⟩ := idx_facts ⟨(i 0).val / 4, hN⟩
  have e0' : win0_6.index ⟨(i 0).val / 4, hN⟩ (0 : Fin 3) = (i 0).val / 4 := e0
  refine ⟨⟨(i 0).val / 4, hN⟩, flush0_6 _, ?_⟩
  show i ∈ ((View.whole main_v9).slice (win0_6.rect ⟨(i 0).val / 4, hN⟩)).set
  rw [View.set_slice_whole, Rect.mem_set_unit]
  intro a
  match a with
  | ⟨0, _⟩ =>
    show win0_6.index ⟨(i 0).val / 4, hN⟩ (0 : Fin 3) * 4 ≤ (i 0).val
      ∧ (i 0).val < win0_6.index ⟨(i 0).val / 4, hN⟩ (0 : Fin 3) * 4 + 4
    omega
  | ⟨1, _⟩ =>
    show win0_6.index ⟨(i 0).val / 4, hN⟩ (1 : Fin 3) * 512 ≤ (i 1).val
      ∧ (i 1).val < win0_6.index ⟨(i 0).val / 4, hN⟩ (1 : Fin 3) * 512 + 512
    omega
  | ⟨2, _⟩ =>
    show win0_6.index ⟨(i 0).val / 4, hN⟩ (2 : Fin 3) * 128 ≤ (i 2).val
      ∧ (i 2).val < win0_6.index ⟨(i 0).val / 4, hN⟩ (2 : Fin 3) * 128 + 128
    omega

/-- THE ARRAY after the region is row attention of every row. -/
theorem final_rows (c : Dev nD) : (dats m 0 c).arrAt 6 cfg0.N = rows m c :=
  (dats m 0 c).arrAt_eq_of_cover 6 (rows m c) (fun t _ => flushed_eq m c t) cover

end Cert.KernelIdeal.RowValue

end
-- ==== Proof.KernelRun.lean ====
/-
  The kernel's run, read: after the reshape that follows the region the result array is the specification's, and the
  arguments are as launched.
-/
import proofs.«145544_j3539053052297_1_alg».proof.Proof.KernelArray

noncomputable section

open scoped BigOperators

namespace Cert.KernelIdeal.RowValue

open Cert.KernelIdeal Cert.KernelIdeal.Gen Idealize.ShloMosaic Idealize.ShloMosaic.TcCoe Idealize.SL.Sem
open Idealize.ShloMosaic.ValueIdx Cert.RowAttention
open Idealize.ShloMosaic.Pipeline (Dat)

variable (m : (ℓ : Loc nD τ sig) → Buf (Elt Ideal) ℓ) (ρ : Dev nD → PrngReg)

/-- After the reshape that follows the region the result array is the specification's: the leading unit axis changes no
    entry. -/
theorem tail_result (c : Dev nD) :
    Pipeline.afterTail₀ cfgs (dats m) 0 (V0 m) [hostOps1] c main_v10
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.devRef .tc main_v9) = rows m c :=
    (Pipeline.withArrays_arr spec0 launch0.win.arr_inj c _ _ 6).trans (final_rows m c)
  funext i
  show shapeCast S1x512x512x128 (Pipeline.withArrays (cfgs 0).spec c (V0 m c)
    (fun w => (dats m 0 c).arrAt w (cfgs 0).N) (Proc.devRef .tc main_v9)) shapeCasts_S512x512x128_S1x512x512x128 i = _
  rw [hw]
  refine (congrArg (shapeCast S1x512x512x128 (rows m c) shapeCasts_S512x512x128_S1x512x512x128) (eq_ix4 i)).trans ?_
  refine (shapeCast_abc_1abc_apply _ _ (i 0) (i 1) (i 2) (i 3)).trans ?_
  rfl

/-- THE KERNEL'S RUN: every weakly fair execution terminates with the result array at the specification of the
    argument arrays, and the arguments unchanged. -/
theorem run : θ_run defs (onTc (τ := τ) (main (F := Ideal))) ⟨m, fun _ => 0, ρ⟩ fun r => ∀ c : Dev nD,
      r.2.mem ((c.tc : Thread nD τ).loc main_v10)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v10 (Pipeline.mem_restRefs_of main_v10 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RowValue

end
-- ==== Proof.lean ====
/-
  Row attention on a [1, 512, 512, 128] input: a kernel that works four rows at a time against a reference that works on
  the whole array, equal entry by entry on the extended reals.

  Both programs normalise every token over its 128 features (root mean square with a stabiliser, then a learned scale),
  map it linearly to a query, a key and a value (the value with a bias), and attend within each row of 512 tokens: scaled
  scores, a softmax over the keys (shifted by the row maximum), the weights applied to the values. The kernel does this
  over a grid of 128 points, four rows per point, with the three weight matrices transposed beforehand; the reference does
  it on the whole array. A row's output reads nothing of another row, and the two programs spell the same expression in
  the same order — the same words for 128, for the stabiliser, for the score scale and for minus infinity, a division by
  the sum on both sides — so on the extended reals they agree by reading each side at an index: no algebraic law is
  needed, and the precondition (finite inputs) is never opened.

  The specification is in RowAttention; RefRows reads the reference as it; KernelRow and KernelSoftmax read one grid
  point's block; KernelArray goes from blocks to the array through the host operations before the region; KernelRun
  through the reshape after it.
-/
import proofs.«145544_j3539053052297_1_alg».proof.Defs
import proofs.«145544_j3539053052297_1_alg».proof.Proof.Gen.Kernel
import proofs.«145544_j3539053052297_1_alg».proof.Proof.Gen.Kernel.Frame
import proofs.«145544_j3539053052297_1_alg».proof.Proof.Gen.KernelIdeal
import proofs.«145544_j3539053052297_1_alg».proof.Proof.Gen.KernelIdeal.Frame
import proofs.«145544_j3539053052297_1_alg».proof.Proof.Gen.ReferenceIdeal
import proofs.«145544_j3539053052297_1_alg».proof.Proof.Gen.ReferenceIdeal.Run
import proofs.«145544_j3539053052297_1_alg».proof.Proof.Gen.ReferenceIdeal.Read
import proofs.«145544_j3539053052297_1_alg».proof.Proof.Gen.Pre_finite_inputs
import proofs.«145544_j3539053052297_1_alg».proof.Proof.RefRows
import proofs.«145544_j3539053052297_1_alg».proof.Proof.KernelRun
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: it runs, and its arguments are no operation's result. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals. -/
theorem preserves : Cert.preserves_Kernel_KernelIdeal := trivial

/-- On the extended reals both programs end with row attention of every row of the input (`RowAttention.result` of the
    argument arrays), the kernel block by block and the reference stage by stage; the arguments agree, so the results do. -/
theorem algebraic : Cert.algebraic_KernelIdeal_ReferenceIdeal := by
  intro m ρ m' ρ' _ hagree
  refine ⟨fun c => Cert.RowAttention.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.RowValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v33_eq, Cert.ReferenceIdeal.RefValue.ref_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
